-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x2 : Shape := ⟨2, ![320000, 2]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : IVec S320000x2 32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S320000x2 : Shape := ⟨2, ![320000, 2]⟩
abbrev S128x128 : Shape := ⟨2, ![128, 128]⟩
abbrev S320000x1 : Shape := ⟨2, ![320000, 1]⟩
abbrev S320000 : Shape := ⟨1, ![320000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x129 : Shape := ⟨2, ![640000, 129]⟩
abbrev S10000x129 : Shape := ⟨2, ![10000, 129]⟩
abbrev S10000x1 : Shape := ⟨2, ![10000, 1]⟩
abbrev S1000x128 : Shape := ⟨2, ![1000, 128]⟩
abbrev S1000x1 : Shape := ⟨2, ![1000, 1]⟩

abbrev nBuf : Space → Nat
  | .hbm => 33
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S128x128, .f32⟩
  | .hbm, ⟨3, _⟩ => ⟨S128x128, .f32⟩
  | .hbm, ⟨4, _⟩ => ⟨S320000x1, .i32⟩
  | .hbm, ⟨5, _⟩ => ⟨S320000, .i32⟩
  | .hbm, ⟨6, _⟩ => ⟨S320000x1, .i32⟩
  | .hbm, ⟨7, _⟩ => ⟨S320000, .i32⟩
  | .hbm, ⟨8, _⟩ => ⟨S640000, .i32⟩
  | .hbm, ⟨9, _⟩ => ⟨S320000x1, .i32⟩
  | .hbm, ⟨10, _⟩ => ⟨S320000, .i32⟩
  | .hbm, ⟨11, _⟩ => ⟨S320000x1, .i32⟩
  | .hbm, ⟨12, _⟩ => ⟨S320000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S640000x1, .f32⟩
  | .hbm, ⟨25, _⟩ => ⟨S640000x129, .f32⟩
  | .hbm, ⟨26, _⟩ => ⟨S_, .f32⟩
  | .hbm, ⟨27, _⟩ => ⟨S10000x129, .f32⟩
  | .hbm, ⟨28, _⟩ => ⟨S640000x1, .i32⟩
  | .hbm, ⟨29, _⟩ => ⟨S10000x129, .f32⟩
  | .hbm, ⟨30, _⟩ => ⟨S10000x128, .f32⟩
  | .hbm, ⟨31, _⟩ => ⟨S10000x1, .f32⟩
  | .hbm, ⟨32, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S320000x2_S320000x1_0_1 : S320000x2.Slices ![0, 1] S320000x1
  shapeCasts_S320000x1_S320000 : S320000x1.ShapeCasts S320000
  slices_S320000x2_S320000x1_0_0 : S320000x2.Slices ![0, 0] S320000x1
  concatenates_S320000_S320000_S640000_d0 : Shape.Concatenates [S320000, S320000] S640000 0
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  concatenates_S640000x128_S640000x1_S640000x129_d1 : Shape.Concatenates [S640000x128, S640000x1] S640000x129 1
  bcast_S_S10000x129 : S_.BroadcastsInDim S10000x129 (![] : Fin 0 → Fin S10000x129.rank)
  slices_S10000x129_S10000x128_0_0 : S10000x129.Slices ![0, 0] S10000x128
  slices_S10000x129_S10000x1_0_128 : S10000x129.Slices ![0, 128] S10000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S10000x128_S640000x1_S640000x128_1_0_n_n_0_1_1128_wf : GatherDims.WF S10000x128 S640000x1 S640000x128 [1] [0] [] [0] [] 1 ![1, 128]
  scatter_S10000x129_S640000x1_S640000x129_1_0_0_1_wf : ScatterDims.WF S10000x129 S640000x1 S640000x129 [1] [0] [0] 1
  dot_S1000x128_S128x128_S1000x128_1_1_0_0_n_n_wf : DotDims.WF S1000x128 S128x128 S1000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S10000x1.size a
  hwx0_1 : ∀ i : grid0.Coords, EltTy.bits .f32 = 32 ∨ (Rect.block (s := S10000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x129_S640000x1_S640000x129_1_0_0_1 : ScatterDims S10000x129 S640000x1 S640000x129 where
  updateWindowDims := [1]
  insertedWindowDims := [0]
  scatterDimsToOperandDims := [0]
  indexVectorDim := 1
  wf := scatter_S10000x129_S640000x1_S640000x129_1_0_0_1_wf
def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf

abbrev win0_0 : Pipeline.Window sig grid0 :=
  Pipeline.Window.ofSpec (Memref.whole main_v22) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S320000x2 : Shape := ⟨2, ![320000, 2]⟩
abbrev S128x128 : Shape := ⟨2, ![128, 128]⟩
abbrev S320000x1 : Shape := ⟨2, ![320000, 1]⟩
abbrev S320000 : Shape := ⟨1, ![320000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩

abbrev nBuf : Space → Nat
  | .hbm => 56
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x2, .i32⟩
  | .hbm, ⟨2, _⟩ => ⟨S128x128, .f32⟩
  | .hbm, ⟨3, _⟩ => ⟨S128x128, .f32⟩
  | .hbm, ⟨4, _⟩ => ⟨S320000x1, .i32⟩
  | .hbm, ⟨5, _⟩ => ⟨S320000, .i32⟩
  | .hbm, ⟨6, _⟩ => ⟨S320000x1, .i32⟩
  | .hbm, ⟨7, _⟩ => ⟨S320000, .i32⟩
  | .hbm, ⟨8, _⟩ => ⟨S640000, .i32⟩
  | .hbm, ⟨9, _⟩ => ⟨S320000x1, .i32⟩
  | .hbm, ⟨10, _⟩ => ⟨S320000, .i32⟩
  | .hbm, ⟨11, _⟩ => ⟨S320000x1, .i32⟩
  | .hbm, ⟨12, _⟩ => ⟨S320000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S10000x1, .f32⟩
  | .hbm, ⟨34, _⟩ => ⟨S_, .f32⟩
  | .hbm, ⟨35, _⟩ => ⟨S10000x1, .f32⟩
  | .hbm, ⟨36, _⟩ => ⟨S10000x1, .i1⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S_, .f32⟩
  | .hbm, ⟨45, _⟩ => ⟨S10000x128, .i1⟩
  | .hbm, ⟨46, _⟩ => ⟨S10000x128, .f32⟩
  | .hbm, ⟨47, _⟩ => ⟨S10000x128, .f32⟩
  | .hbm, ⟨48, _⟩ => ⟨S128x128, .f32⟩
  | .hbm, ⟨49, _⟩ => ⟨S10000x128, .f32⟩
  | .hbm, ⟨50, _⟩ => ⟨S128x128, .f32⟩
  | .hbm, ⟨51, _⟩ => ⟨S10000x128, .f32⟩
  | .hbm, ⟨52, _⟩ => ⟨S10000x128, .f32⟩
  | .hbm, ⟨53, _⟩ => ⟨S_, .f32⟩
  | .hbm, ⟨54, _⟩ => ⟨S10000x128, .f32⟩
  | .hbm, ⟨55, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_cst : Ref sig .tc := ⟨.hbm, 53, rfl⟩
abbrev main_call1_v0 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  slices_S320000x2_S320000x1_0_1 : S320000x2.Slices ![0, 1] S320000x1
  shapeCasts_S320000x1_S320000 : S320000x1.ShapeCasts S320000
  slices_S320000x2_S320000x1_0_0 : S320000x2.Slices ![0, 0] S320000x1
  concatenates_S320000_S320000_S640000_d0 : Shape.Concatenates [S320000, S320000] S640000 0
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  One entry of a mean-aggregating graph layer, on the extended reals.

  A node has a row `a` of summed neighbour features and a degree `d` (the number of summed neighbours). The layer takes
  the mean row — `a` scaled by `1 / max d 1`, or the zero row for an isolated node —, applies one weight matrix to it and
  a second weight matrix to the node's own row `x`, adds the two and clips the sum below at zero. The entry in output
  column `c` reads row `c` of each weight matrix (the weights are stored [out, in]).

  Two spellings of the mean meet here. One scales by a reciprocal: `a k * (if 0 < d then 1 / max d 1 else 0)`. The other
  divides: `if 0 < d then a k / max d 1 else 0`. They agree for EVERY extended real `a k` and `d`: `max d 1` is at
  least 1, so it is not zero, and division off zero is multiplication by the inverse; and anything times zero is zero.
  No finiteness is used.
-/
import Idealize.ShloMosaic.PureOps.Ideal
import Idealize.ShloMosaic.PureOps.Ideal.Laws
import Idealize.ShloMosaic.Lib.ValueIdx

noncomputable section

namespace Cert.MeanLayer

open Idealize.ShloMosaic Idealize.ShloMosaic.ValueIdx

/-- The float word of `0.0`, as an extended real. -/
abbrev zero : EReal := Ideal.ofBits .f32 0x00000000#32
/-- The float word of `1.0`, as an extended real. -/
abbrev one : EReal := Ideal.ofBits .f32 0x3F800000#32

theorem zero_eq : zero = 0 := Ideal.ofBits_zero_f32

theorem one_eq : one = 1 := by
  simp [Ideal.ofBits, Ideal.ieee, -EReal.coe_mul]; norm_num

/-- The factor a node's neighbour sum is scaled by: the reciprocal of its degree clipped below at one when the degree is
    positive, zero for an isolated node. -/
def inv (d : EReal) : EReal :=
  Scalar.select (Ideal.cmp .ogt d zero) (Ideal.div one (max d one)) zero

/-- Scaling by the reciprocal is dividing, and scaling by zero gives zero: for every extended real `a` and `d`. -/
theorem mean_law (a d : EReal) :
    a * inv d = Scalar.select (Ideal.cmp .ogt d zero) (Ideal.div a (max d one)) zero := by
  unfold inv
  have hne : max d one ≠ 0 := by
    have h1 : (0 : EReal) < one := by rw [one_eq]; exact zero_lt_one
    exact (lt_of_lt_of_le h1 (le_max_right d one)).ne'
  rcases BitVec.eq_zero_or_eq_one (Ideal.cmp .ogt d zero) with h | h
  · rw [h, select_zero, select_zero, zero_eq, mul_zero]
  · rw [h, select_one, select_one, Ideal.div, Ideal.div, if_neg hne, if_neg hne]
    generalize max d one = y
    rw [one_eq, one_mul]

/-- One output entry: the mean of the neighbour row `a` (degree `d`) against the weight row `w`, plus the node's own row
    `x` against the weight row `b`, clipped below at zero. -/
def entry (a x w b : Fin 128 → EReal) (d : EReal) : EReal :=
  max ((∑ k : Fin 128, (a k * inv d) * w k) + ∑ k : Fin 128, x k * b k) zero

/-- The same entry with the mean spelt as a division guarded by the degree's sign. -/
theorem entry_eq_div (a x w b : Fin 128 → EReal) (d : EReal) :
    entry a x w b d
      = max ((∑ k : Fin 128, Scalar.select (Ideal.cmp .ogt d zero) (Ideal.div (a k) (max d one)) zero * w k)
          + ∑ k : Fin 128, x k * b k) zero := by
  unfold entry
  simp only [mean_law]

/-- The layer on whole arrays: neighbour sums `A` [10000, 128], degrees `D` as a column [10000, 1], node features `X`
    [10000, 128] and the two weights `W`, `B` [128, 128]; entry `(n, c)` reads row `n` of `A`, `D`, `X` and row `c` of
    `W`, `B`. -/
def layer (A : (⟨2, ![10000, 128]⟩ : Shape).Idx → EReal) (D : (⟨2, ![10000, 1]⟩ : Shape).Idx → EReal)
    (X : (⟨2, ![10000, 128]⟩ : Shape).Idx → EReal) (W B : (⟨2, ![128, 128]⟩ : Shape).Idx → EReal) :
    (⟨2, ![10000, 128]⟩ : Shape).Idx → EReal :=
  fun i => entry (fun k => A (ix2 (i 0) k)) (fun k => X (ix2 (i 0) k)) (fun k => W (ix2 (i 1) k))
    (fun k => B (ix2 (i 1) k)) (D (ix2 (i 0) (0 : Fin 1)))

theorem layer_apply (A : (⟨2, ![10000, 128]⟩ : Shape).Idx → EReal) (D : (⟨2, ![10000, 1]⟩ : Shape).Idx → EReal)
    (X : (⟨2, ![10000, 128]⟩ : Shape).Idx → EReal) (W B : (⟨2, ![128, 128]⟩ : Shape).Idx → EReal)
    (n : Fin 10000) (c : Fin 128) :
    layer A D X W B (ix2 n c) = entry (fun k => A (ix2 n k)) (fun k => X (ix2 n k)) (fun k => W (ix2 c k))
      (fun k => B (ix2 c k)) (D (ix2 n (0 : Fin 1))) := rfl

end Cert.MeanLayer

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Body.lean ====
/-
  What one grid step computes, entry by entry.

  A grid step holds a block of 1000 nodes: their neighbour sums `a` [1000, 128], their degrees `d` as a column [1000, 1],
  their own features `x` [1000, 128], and both weight matrices whole, `w` and `b` [128, 128], stored [out, in]. It scales
  each row of `a` by the node's factor `inv d` (the column broadcast across the 128 lanes), multiplies the scaled rows
  by `w` and the rows of `x` by `b` — each product contracted over the SECOND axis of both operands, into a zero
  accumulator —, adds the two products and clips below at zero. On the extended reals the narrowing of the operands to a
  16-bit format is the identity and a product into the zero accumulator is the plain sum over the contracted coordinate,
  so the entry at (p, c) is `MeanLayer.entry` of row p of `a`, `x`, its degree, and row c of `w`, `b`.
-/
import proofs.«158927_j68272800137826_2_alg».proof.Proof.Gen.KernelIdeal.Skeleton
import proofs.«158927_j68272800137826_2_alg».proof.Proof.Spec
import proofs.«158927_j68272800137826_2_alg».proof.Proof.LibRowProduct
import proofs.«158927_j68272800137826_2_alg».proof.Proof.LibColumnLayout
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.MeanLayer

/-- The dimension numbers of both products: [1000, 128] by [128, 128], each contracted over its second axis. -/
abbrev dims : DotDims S1000x128 S128x128 S1000x128 := dot_S1000x128_S128x128_S1000x128_1_1_0_0_n_n

/-- The left operand is read at the output's row … -/
theorem lhs_row (j : (⟨2, ![1000, 128]⟩ : Shape).Idx) (q : dims.contr.Idx) :
    (dims.lhsIdx j q (0 : Fin 2)).val = (j (0 : Fin 2)).val := by
  unfold DotDims.lhsIdx
  rw [dif_neg (show ¬(0 : Fin S1000x128.rank) ∈ dims.lhsBatch by decide),
    dif_pos (show (0 : Fin S1000x128.rank) ∈ dims.lhsNonContracting by decide)]
  rfl
/-- … and the contracted coordinate; -/
theorem lhs_contr (j : (⟨2, ![1000, 128]⟩ : Shape).Idx) (q : dims.contr.Idx) :
    (dims.lhsIdx j q (1 : Fin 2)).val = (q ⟨0, by decide⟩).val :=
  dims.lhsIdx_val_of_single rfl j q
/-- the right operand at the output's COLUMN, as its row, … -/
theorem rhs_row (j : (⟨2, ![1000, 128]⟩ : Shape).Idx) (q : dims.contr.Idx) :
    (dims.rhsIdx j q (0 : Fin 2)).val = (j (1 : Fin 2)).val := by
  unfold DotDims.rhsIdx
  rw [dif_neg (show ¬(0 : Fin S128x128.rank) ∈ dims.rhsBatch by decide),
    dif_pos (show (0 : Fin S128x128.rank) ∈ dims.rhsNonContracting by decide)]
  rfl
/-- … and the contracted coordinate. -/
theorem rhs_contr (j : (⟨2, ![1000, 128]⟩ : Shape).Idx) (q : dims.contr.Idx) :
    (dims.rhsIdx j q (1 : Fin 2)).val = (q ⟨0, by decide⟩).val :=
  dims.rhsIdx_val_of_single rfl j q

/-- The stored value of a grid step at entry (p, c), from the five blocks the step loads. -/
theorem pay_apply (d : Vec Ideal S1000x1 .f32) (a x : Vec Ideal S1000x128 .f32) (w b : Vec Ideal S128x128 .f32)
    (p : Fin 1000) (c : Fin 128) :
    k0_pay1 (F := Ideal) d a x w b (ix2 p c)
      = entry (fun k => a (ix2 p k)) (fun k => x (ix2 p k)) (fun k => w (ix2 c k)) (fun k => b (ix2 c k))
          (d (ix2 p (0 : Fin 1))) := by
  unfold k0_pay1 entry
  simp only [shapeCast_self]
  refine congrArg₂ max (congrArg₂ (· + ·) ?_ ?_) rfl
  · refine (RowProduct.matmul_zero_entry dims rfl rfl lhs_row lhs_contr rhs_row rhs_contr _ _ p c).trans
      (Finset.sum_congr rfl fun k _ => ?_)
    refine congrArg₂ (· * ·) ?_ rfl
    rw [truncf_apply, mulf_apply, ColumnLayout.broadcastTo_a1_ab_apply]
    rfl
  · exact RowProduct.matmul_zero_entry dims rfl rfl lhs_row lhs_contr rhs_row rhs_contr _ _ p c

end Cert.KernelIdeal.Body

end
-- ==== Proof.Blocks.lean ====
/-
  From the grid's blocks to the whole output array.

  The grid has ten steps; step t holds rows 1000·t .. 1000·t + 999 of the neighbour sums, the degrees and the node
  features, both weight matrices whole, and writes rows 1000·t .. 1000·t + 999 of the output. The entry a step stores
  at (p, c) of its block is `MeanLayer.entry` of row p of its blocks (Body.lean); row p of block t is row 1000·t + p of
  the array, and the weights' only block is the array itself; so what step t writes back is block t of `MeanLayer.layer`
  of the arrays the grid finds. Every output row lies in the block of the step `row / 1000`, so the blocks cover the
  output and it ends as `MeanLayer.layer` of those arrays, entry by entry.
-/
import proofs.«158927_j68272800137826_2_alg».proof.Proof.Gen.KernelIdeal.Value
import proofs.«158927_j68272800137826_2_alg».proof.Proof.Body
import proofs.«158927_j68272800137826_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.MeanLayer
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices over the grid: the three row windows sit at the output's row block and column block 0; the two
    weights stay at block (0, 0); the output's row block is below 10 and its column block is 0. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some step's. -/
theorem index_onto : ∀ q : Fin 10, ∃ t : Fin cfg0.N, win0_5.index t = ![q.val, 0] :=
  (by decide +kernel : ∀ q : Fin 10, ∃ t : Fin grid0.N, win0_5.index t = ![q.val, 0])

/-- A stored entry is the layer's entry, once each loaded block is known to hold the rows of its array that the entry
    reads: stated over plain blocks and arrays, for one block index `y` and one array index `i`. -/
theorem stored_entry (A : S10000x128.Idx → EReal) (D : S10000x1.Idx → EReal) (X : S10000x128.Idx → EReal)
    (W B : S128x128.Idx → EReal)
    (a : Vec Ideal S1000x128 .f32) (d : Vec Ideal S1000x1 .f32) (x : Vec Ideal S1000x128 .f32)
    (w b : Vec Ideal S128x128 .f32) (y : S1000x128.Idx) (i : S10000x128.Idx)
    (ha : ∀ k : Fin 128, a (ix2 (y 0) k) = A (ix2 (i 0) k))
    (hd : d (ix2 (y 0) (0 : Fin 1)) = D (ix2 (i 0) (0 : Fin 1)))
    (hx : ∀ k : Fin 128, x (ix2 (y 0) k) = X (ix2 (i 0) k))
    (hw : ∀ k : Fin 128, w (ix2 (y 1) k) = W (ix2 (i 1) k))
    (hb : ∀ k : Fin 128, b (ix2 (y 1) k) = B (ix2 (i 1) k)) :
    k0_pay1 (F := Ideal) d a x w b y = layer A D X W B i := by
  obtain ⟨p, q, rfl⟩ : ∃ (p : Fin 1000) (q : Fin 128), y = ix2 p q := ⟨y 0, y 1, eq_ix2 y⟩
  rw [Body.pay_apply]
  unfold layer
  rw [show (fun k => a (ix2 p k)) = fun k => A (ix2 (i 0) k) from funext ha,
    show (fun k => x (ix2 p k)) = fun k => X (ix2 (i 0) k) from funext hx,
    show (fun k => w (ix2 q k)) = fun k => W (ix2 (i 1) k) from funext hw,
    show (fun k => b (ix2 q k)) = fun k => B (ix2 (i 1) k) from funext hb,
    show d (ix2 p (0 : Fin 1)) = D (ix2 (i 0) (0 : Fin 1)) from hd]

/-- What step `t` writes back is block `t` of the layer of the arrays the grid finds. -/
theorem flushed_eq (c : Dev nD) (t : Fin cfg0.N) :
    (dats m 0 c).flushed 5 t = ((cfg0.win 5).blk t).view.read (Elt Ideal)
      (layer (V m c main_v22) (V m c main_v23) (V m c main_arg0) (V m c main_arg2) (V m c main_arg3)) := by
  rw [Value.flushed5]
  unfold out0_5
  rw [View.canon_unit_zero origin]
  simp only [View.ld_unit_zero (S := S1000x128) origin, View.ld_unit_zero (S := S1000x1) origin,
    View.ld_unit_zero (S := S128x128) origin]
  obtain ⟨e00, e01, e10, e11, e20, e21, e30, e31, e40, e41, e51, e50⟩ := index_facts t
  funext j
  show k0_pay1 (F := Ideal) (iblk m c 1 t) (iblk m c 0 t) (iblk m c 2 t) (iblk m c 3 t) (iblk m c 4 t) j
    = layer (V m c main_v22) (V m c main_v23) (V m c main_arg0) (V m c main_arg2) (V m c main_arg3)
        (((cfg0.win 5).blk t).view.emb j)
  have hj0 : (j 0).val < 1000 := (j 0).isLt
  have hj1 : (j 1).val < 128 := (j 1).isLt
  refine stored_entry (V m c main_v22) (V m c main_v23) (V m c main_arg0) (V m c main_arg2) (V m c main_arg3)
    (iblk m c 0 t) (iblk m c 1 t) (iblk m c 2 t) (iblk m c 3 t) (iblk m c 4 t) j (((cfg0.win 5).blk t).view.emb j)
    (fun k => ?_) ?_ (fun k => ?_) (fun k => ?_) (fun k => ?_)
  · show V m c main_v22 (((cfg0.win 0).blk t).view.emb (ix2 (j 0) k)) = V m c main_v22 (ix2 ((((cfg0.win 5).blk t).view.emb j) 0) k)
    refine congrArg (V m c main_v22) (funext fun a => Fin.ext ?_)
    match a with
    | ⟨0, _⟩ => show win0_0.index t (0 : Fin 2) * 1000 + 1 * (j 0).val = win0_5.index t (0 : Fin 2) * 1000 + 1 * (j 0).val; omega
    | ⟨1, _⟩ => show win0_0.index t (1 : Fin 2) * 128 + 1 * k.val = k.val; omega
  · show V m c main_v23 (((cfg0.win 1).blk t).view.emb (ix2 (j 0) (0 : Fin 1))) = V m c main_v23 (ix2 ((((cfg0.win 5).blk t).view.emb j) 0) (0 : Fin 1))
    refine congrArg (V m c main_v23) (funext fun a => Fin.ext ?_)
    match a with
    | ⟨0, _⟩ => show win0_1.index t (0 : Fin 2) * 1000 + 1 * (j 0).val = win0_5.index t (0 : Fin 2) * 1000 + 1 * (j 0).val; omega
    | ⟨1, _⟩ => show win0_1.index t (1 : Fin 2) * 1 + 1 * 0 = 0; omega
  · show V m c main_arg0 (((cfg0.win 2).blk t).view.emb (ix2 (j 0) k)) = V m c main_arg0 (ix2 ((((cfg0.win 5).blk t).view.emb j) 0) k)
    refine congrArg (V m c main_arg0) (funext fun a => Fin.ext ?_)
    match a with
    | ⟨0, _⟩ => show win0_2.index t (0 : Fin 2) * 1000 + 1 * (j 0).val = win0_5.index t (0 : Fin 2) * 1000 + 1 * (j 0).val; omega
    | ⟨1, _⟩ => show win0_2.index t (1 : Fin 2) * 128 + 1 * k.val = k.val; omega
  · show V m c main_arg2 (((cfg0.win 3).blk t).view.emb (ix2 (j 1) k)) = V m c main_arg2 (ix2 ((((cfg0.win 5).blk t).view.emb j) 1) k)
    refine congrArg (V m c main_arg2) (funext fun a => Fin.ext ?_)
    match a with
    | ⟨0, _⟩ => show win0_3.index t (0 : Fin 2) * 128 + 1 * (j 1).val = win0_5.index t (1 : Fin 2) * 128 + 1 * (j 1).val; omega
    | ⟨1, _⟩ => show win0_3.index t (1 : Fin 2) * 128 + 1 * k.val = k.val; omega
  · show V m c main_arg3 (((cfg0.win 4).blk t).view.emb (ix2 (j 1) k)) = V m c main_arg3 (ix2 ((((cfg0.win 5).blk t).view.emb j) 1) k)
    refine congrArg (V m c main_arg3) (funext fun a => Fin.ext ?_)
    match a with
    | ⟨0, _⟩ => show win0_4.index t (0 : Fin 2) * 128 + 1 * (j 1).val = win0_5.index t (1 : Fin 2) * 128 + 1 * (j 1).val; omega
    | ⟨1, _⟩ => show win0_4.index t (1 : Fin 2) * 128 + 1 * k.val = k.val; omega

/-- An index of the output is in step `t`'s block iff each coordinate is in the block's range on its axis. -/
theorem mem_blk (t : Fin cfg0.N) (i : S10000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v24).slice (win0_5.rect t)).set ↔ _
  rw [View.set_slice_whole, Rect.mem_set_unit]
  exact Iff.rfl

/-- Every output index lies in the block of the step `row / 1000`. -/
theorem covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := index_onto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- The output array after the grid: the layer of the arrays the grid finds. -/
theorem final (c : Dev nD) :
    (dats m 0 c).arrAt 5 cfg0.N
      = layer (V m c main_v22) (V m c main_v23) (V m c main_arg0) (V m c main_arg2) (V m c main_arg3) :=
  (dats m 0 c).arrAt_eq_of_cover 5 _ (fun t _ => flushed_eq m c t) covered

/-- The run of the whole program: the result is the layer of the two host-prepared arrays and of the node features and
    weights as launched; the arguments end unchanged. -/
theorem run : θ_run defs (onTc (τ := τ) (main (F := Ideal))) ⟨m, fun _ => 0, ρ⟩ fun r => ∀ c : Dev nD,
      r.2.mem ((c : Thread nD τ).loc main_v24)
        = layer (V m c main_v22) (V m c main_v23) (m ((c : Thread nD τ).loc main_arg0))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c, V_main_arg0 m c, V_main_arg2 m c, V_main_arg3 m c], (h c).2⟩)
    (Value.run_blocks m ρ)

end Cert.KernelIdeal.Blocks

end
-- ==== Proof.LibScatterRows.lean ====
/-
  A host scatter whose combiner is float addition, read at one element, for the dimension numbers of a segment
  sum over rows: scatter indices of shape [E, 1] (one start coordinate per update row, on operand axis 0), the
  operand's axis 0 inserted, every other axis a window axis carried over unchanged.  At the
  ideal instance the result element (n, rest) is the operand's element plus the sum, over the update rows
  e whose start index is n, of the update element (e, rest).  Three ranks are stated: a vector [N],
  a matrix [N, C] and a rank-3 array [N, 1, C].
-/
import Idealize.ShloMosaic.PureOps.Ideal
import Idealize.ShloMosaic.Lib.ValueIdx

noncomputable section

namespace Cert.ScatterRows

open Idealize.ShloMosaic Idealize.ShloMosaic.ValueIdx

/-- An update index lands on the operand index `i` exactly when, on every operand axis, its start
    coordinate plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h2 := h a
      rw [← hf]
      simp only
      rw [Int.toNat_of_nonneg h2.1]
    · intro hf
      funext a
      apply Fin.ext
      simp only
      rw [hf a]
      exact Int.toNat_natCast _
  · rename_i h
    constructor
    · intro hf
      cases hf
    · intro hf
      exfalso
      apply h
      intro a
      rw [hf a]
      exact ⟨Int.natCast_nonneg _, by exact_mod_cast (i a).isLt⟩

section Rank2
variable {N E C w : Nat}

/-- Matrix case: the scatter-indices position read for an update index is `(row, 0)`. -/
theorem siIdx2 (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Matrix case: an update index lands on `(n, c)` exactly when its row's start index is `n` and its column is `c`. -/
theorem resultIdx2_iff (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (j : (⟨2, ![E, C]⟩ : Shape).Idx) (idx : IVec ⟨2, ![E, 1]⟩ w)
    (n : Fin N) (c : Fin C) :
    d.resultIdx? j idx = some (ix2 n c) ↔ (idx (ix2 (j 0) 0)).toInt = (n.val : ℤ) ∧ (j 1).val = c.val := by
  rw [resultIdx?_eq_some_iff, Fin.forall_fin_two]
  have hs := siIdx2 d huw hiw hsd hiv j
  obtain ⟨uw, iw, sd, iv, wf⟩ := d
  simp only at huw hiw hsd hiv
  subst huw hiw hsd hiv
  have s0 : ScatterDims.start ⟨[1], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1], [0], [0], 1, wf⟩ j idx 1 = 0 := by
    unfold ScatterDims.start
    rw [dif_neg (by simp)]
  have w0 : ScatterDims.window ⟨[1], [0], [0], 1, wf⟩ j 0 = 0 := by
    unfold ScatterDims.window
    rw [dif_neg (by simp [ScatterDims.sKept, Shape.kept])]
  have w1 : ScatterDims.window ⟨[1], [0], [0], 1, wf⟩ j 1 = (j 1).val := by
    unfold ScatterDims.window
    rw [dif_pos (by simp [ScatterDims.sKept, Shape.kept])]
    rfl
  rw [s0, s1, w0, w1]
  show (idx (ix2 (j 0) 0)).toInt + ((0 : ℕ) : ℤ) = (n.val : ℤ) ∧ (0 : ℤ) + (((j 1).val : ℕ) : ℤ) = (c.val : ℤ) ↔ _
  constructor
  · rintro ⟨h1, h2⟩
    exact ⟨by omega, by omega⟩
  · rintro ⟨h1, h2⟩
    exact ⟨by omega, by omega⟩

end Rank2

section Rank1
variable {N E w : Nat}

/-- Vector case: the scatter-indices position read for an update index is `(row, 0)`. -/
theorem siIdx1 (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Vector case: an update index lands on `n` exactly when its row's start index is `n`. -/
theorem resultIdx1_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (j : (⟨1, ![E]⟩ : Shape).Idx) (idx : IVec ⟨2, ![E, 1]⟩ w) (n : Fin N) :
    d.resultIdx? j idx = some (ix1 n) ↔ (idx (ix2 (j 0) 0)).toInt = (n.val : ℤ) := by
  rw [resultIdx?_eq_some_iff, Fin.forall_fin_one]
  have hs := siIdx1 d huw hiw hsd hiv j
  obtain ⟨uw, iw, sd, iv, wf⟩ := d
  simp only at huw hiw hsd hiv
  subst huw hiw hsd hiv
  have s0 : ScatterDims.start ⟨[], [0], [0], 1, wf⟩ j idx 0 = (idx (ix2 (j 0) 0)).toInt := by
    unfold ScatterDims.start
    rw [dif_pos (show _ from List.mem_singleton.2 rfl)]
    exact congrArg (fun t => (idx t).toInt) (hs _)
  have w0 : ScatterDims.window ⟨[], [0], [0], 1, wf⟩ j 0 = 0 := by
    unfold ScatterDims.window
    rw [dif_neg (by simp [ScatterDims.sKept, Shape.kept])]
  rw [s0, w0]
  show (idx (ix2 (j 0) 0)).toInt + ((0 : ℕ) : ℤ) = (n.val : ℤ) ↔ _
  constructor
  · intro h1
    omega
  · intro h1
    omega

end Rank1

section Rank3
variable {N E C w : Nat}

/-- Rank-3 case: the scatter-indices position read for an update index is `(row, 0)`. -/
theorem siIdx3 (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (h0 : 0 < d.scatterDimsToOperandDims.length) :
    d.siIdx j ⟨0, h0⟩ = ix2 (j 0) 0 := by
  obtain ⟨uw, iw, sd, iv, wf⟩ := d
  simp only at huw hiw hsd hiv
  subst huw hiw hsd hiv
  funext b
  match b with
  | ⟨0, _⟩ => rfl
  | ⟨1, _⟩ => rfl

/-- Rank-3 case: an update index lands on `(n, 0, c)` exactly when its row's start index is `n` and its last
    coordinate is `c` (the middle coordinate lives on a unit axis, so it is `0` on both sides). -/
theorem resultIdx3_iff (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1) (j : (⟨3, ![E, 1, C]⟩ : Shape).Idx) (idx : IVec ⟨2, ![E, 1]⟩ w) (n : Fin N) (c : Fin C) :
    d.resultIdx? j idx = some (ix3 n 0 c) ↔ (idx (ix2 (j 0) 0)).toInt = (n.val : ℤ) ∧ (j 2).val = c.val := by
  rw [resultIdx?_eq_some_iff]
  have hs := siIdx3 d huw hiw hsd hiv j
  have hj1 : (j 1).val < 1 := (j 1).isLt
  obtain ⟨uw, iw, sd, iv, wf⟩ := d
  simp only at huw hiw hsd hiv
  subst huw hiw hsd hiv
  have s0 : ScatterDims.start ⟨[1, 2], [0], [0], 1, wf⟩ j idx 0 = (idx (ix2 (j 0) 0)).toInt := by
    unfold ScatterDims.start
    rw [dif_pos (show _ from List.mem_singleton.2 rfl)]
    exact congrArg (fun t => (idx t).toInt) (hs _)
  have s1 : ScatterDims.start ⟨[1, 2], [0], [0], 1, wf⟩ j idx 1 = 0 := by
    unfold ScatterDims.start
    rw [dif_neg (by simp)]
  have s2 : ScatterDims.start ⟨[1, 2], [0], [0], 1, wf⟩ j idx 2 = 0 := by
    unfold ScatterDims.start
    rw [dif_neg (by simp)]
  have w0 : ScatterDims.window ⟨[1, 2], [0], [0], 1, wf⟩ j 0 = 0 := by
    unfold ScatterDims.window
    rw [dif_neg (by simp [ScatterDims.sKept, Shape.kept])]
  have w1 : ScatterDims.window ⟨[1, 2], [0], [0], 1, wf⟩ j 1 = (j 1).val := by
    unfold ScatterDims.window
    rw [dif_pos (by simp [ScatterDims.sKept, Shape.kept])]
    rfl
  have w2 : ScatterDims.window ⟨[1, 2], [0], [0], 1, wf⟩ j 2 = (j 2).val := by
    unfold ScatterDims.window
    rw [dif_pos (by simp [ScatterDims.sKept, Shape.kept])]
    rfl
  constructor
  · intro h
    have h0 := h 0
    have h2 := h 2
    rw [s0, w0] at h0
    rw [s2, w2] at h2
    have h0' : (idx (ix2 (j 0) 0)).toInt + ((0 : ℕ) : ℤ) = (n.val : ℤ) := h0
    have h2' : (0 : ℤ) + (((j 2).val : ℕ) : ℤ) = (c.val : ℤ) := h2
    exact ⟨by omega, by omega⟩
  · rintro ⟨h0, h2⟩ a
    match a with
    | ⟨0, _⟩ =>
      show ScatterDims.start ⟨[1, 2], [0], [0], 1, wf⟩ j idx 0
        + ((ScatterDims.window ⟨[1, 2], [0], [0], 1, wf⟩ j 0 : ℕ) : ℤ) = (n.val : ℤ)
      rw [s0, w0]
      omega
    | ⟨1, _⟩ =>
      show ScatterDims.start ⟨[1, 2], [0], [0], 1, wf⟩ j idx 1
        + ((ScatterDims.window ⟨[1, 2], [0], [0], 1, wf⟩ j 1 : ℕ) : ℤ) = ((0 : ℕ) : ℤ)
      rw [s1, w1]
      omega
    | ⟨2, _⟩ =>
      show ScatterDims.start ⟨[1, 2], [0], [0], 1, wf⟩ j idx 2
        + ((ScatterDims.window ⟨[1, 2], [0], [0], 1, wf⟩ j 2 : ℕ) : ℤ) = (c.val : ℤ)
      rw [s2, w2]
      omega

end Rank3

/-- Rows scattered into a vector: element `n` gains the updates of the rows whose start index is `n`. -/
theorem scatterAdd_rows1 {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  symm
  apply Finset.sum_nbij (fun e => ix1 e)
  · intro e he
    rw [Finset.mem_filter] at he ⊢
    refine ⟨Finset.mem_univ _, ?_⟩
    rw [resultIdx1_iff d huw hiw hsd hiv]
    exact he.2
  · intro e1 _ e2 _ h
    exact congrFun h 0
  · intro j hj
    rw [Finset.mem_coe, Finset.mem_filter, resultIdx1_iff d huw hiw hsd hiv] at hj
    refine ⟨j 0, ?_, ?_⟩
    · exact Finset.mem_coe.2 (Finset.mem_filter.2 ⟨Finset.mem_univ _, hj.2⟩)
    · exact (eq_ix1 j).symm
  · intro e _
    rfl

/-- Rows scattered into a matrix: element `(n, c)` gains column `c` of the rows whose start index is `n`. -/
theorem scatterAdd_rows2 {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e ∈ Finset.univ.filter (fun e : Fin E => (idx (ix2 e 0)).toInt = (n.val : ℤ)), upd (ix2 e c) := by
  unfold Ideal.hostScatterAdd
  congr 1
  symm
  apply Finset.sum_nbij (fun e => ix2 e c)
  · intro e he
    rw [Finset.mem_filter] at he ⊢
    refine ⟨Finset.mem_univ _, ?_⟩
    rw [resultIdx2_iff d huw hiw hsd hiv]
    exact ⟨he.2, rfl⟩
  · intro e1 _ e2 _ h
    exact congrFun h 0
  · intro j hj
    rw [Finset.mem_coe, Finset.mem_filter, resultIdx2_iff d huw hiw hsd hiv] at hj
    refine ⟨j 0, ?_, ?_⟩
    · exact Finset.mem_coe.2 (Finset.mem_filter.2 ⟨Finset.mem_univ _, hj.2.1⟩)
    · have hc : j 1 = c := Fin.ext hj.2.2
      rw [← hc]
      exact (eq_ix2 j).symm
  · intro e _
    rfl

/-- Rows scattered into a rank-3 array with a unit middle axis: element `(n, 0, c)` gains element `(e, 0, c)`
    of the rows `e` whose start index is `n`. -/
theorem scatterAdd_rows3 {N E C w : Nat} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : (⟨3, ![N, 1, C]⟩ : Shape).Idx → EReal) (idx : IVec ⟨2, ![E, 1]⟩ w) (upd : (⟨3, ![E, 1, C]⟩ : Shape).Idx → EReal)
    (n : Fin N) (c : Fin C) :
    Ideal.hostScatterAdd d x idx upd (ix3 n 0 c)
      = x (ix3 n 0 c) + ∑ e ∈ Finset.univ.filter (fun e : Fin E => (idx (ix2 e 0)).toInt = (n.val : ℤ)), upd (ix3 e 0 c) := by
  unfold Ideal.hostScatterAdd
  congr 1
  symm
  apply Finset.sum_nbij (fun e => ix3 e 0 c)
  · intro e he
    rw [Finset.mem_filter] at he ⊢
    refine ⟨Finset.mem_univ _, ?_⟩
    rw [resultIdx3_iff d huw hiw hsd hiv]
    exact ⟨he.2, rfl⟩
  · intro e1 _ e2 _ h
    exact congrFun h 0
  · intro j hj
    rw [Finset.mem_coe, Finset.mem_filter, resultIdx3_iff d huw hiw hsd hiv] at hj
    refine ⟨j 0, ?_, ?_⟩
    · exact Finset.mem_coe.2 (Finset.mem_filter.2 ⟨Finset.mem_univ _, hj.2.1⟩)
    · have hj1 : (j 1).val < 1 := (j 1).isLt
      have hb : j 1 = (0 : Fin 1) := Fin.ext (Nat.lt_one_iff.1 hj1)
      have hc : j 2 = c := Fin.ext hj.2.2
      rw [← hb, ← hc]
      exact (eq_ix3 j).symm
  · intro e _
    rfl

/-! ## The same, stated of the host operation at the ideal instance

The host's accumulating scatter is, at the ideal instance, the exact sum by definition, whatever the shapes; the
three element forms above follow for it. -/

/-- At the ideal instance the host's accumulating scatter is the exact sum. -/
theorem host_scatterAdd_eq {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Rows scattered into a vector by the host operation: element `n` gains the updates of the rows whose start index is `n`. -/
theorem host_scatterAdd_rows1 {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  (congrFun (host_scatterAdd_eq d x idx upd) (ix1 n)).trans (scatterAdd_rows1 d huw hiw hsd hiv x idx upd n)

/-- Rows scattered into a matrix by the host operation: element `(n, c)` gains column `c` of the rows whose start index is `n`. -/
theorem host_scatterAdd_rows2 {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) d x idx upd (ix2 n c)
      = x (ix2 n c) + ∑ e ∈ Finset.univ.filter (fun e : Fin E => (idx (ix2 e 0)).toInt = (n.val : ℤ)), upd (ix2 e c) :=
  (congrFun (host_scatterAdd_eq d x idx upd) (ix2 n c)).trans (scatterAdd_rows2 d huw hiw hsd hiv x idx upd n c)

/-- Rows scattered into a rank-3 array with a unit middle axis by the host operation: element `(n, 0, c)` gains element
    `(e, 0, c)` of the rows `e` whose start index is `n`. -/
theorem host_scatterAdd_rows3 {N E C w : Nat} {φ : FTy} (d : ScatterDims ⟨3, ![N, 1, C]⟩ ⟨2, ![E, 1]⟩ ⟨3, ![E, 1, C]⟩)
    (huw : d.updateWindowDims = [1, 2]) (hiw : d.insertedWindowDims = [0]) (hsd : d.scatterDimsToOperandDims = [0])
    (hiv : d.indexVectorDim = 1)
    (x : FVec Ideal ⟨3, ![N, 1, C]⟩ φ) (idx : IVec ⟨2, ![E, 1]⟩ w) (upd : FVec Ideal ⟨3, ![E, 1, C]⟩ φ) (n : Fin N) (c : Fin C) :
    Host.scatterAdd (F := Ideal) d x idx upd (ix3 n 0 c)
      = x (ix3 n 0 c) + ∑ e ∈ Finset.univ.filter (fun e : Fin E => (idx (ix2 e 0)).toInt = (n.val : ℤ)), upd (ix3 e 0 c) :=
  (congrFun (host_scatterAdd_eq d x idx upd) (ix3 n 0 c)).trans (scatterAdd_rows3 d huw hiw hsd hiv x idx upd n c)

end Cert.ScatterRows

end
-- ==== Proof.LibConcatCols.lean ====
/-
  Two matrices with the same number of rows laid side by side, read at one entry.

  Joining an [n, a] matrix and an [n, b] matrix along their columns gives an [n, c] matrix whose first a columns are the
  first matrix and whose remaining columns are the second: entry (p, q) is the first matrix's entry (p, q) when q < a, and
  the second matrix's entry (p, q - a) otherwise. Both readings are stated with the piece's own column q' and the
  arithmetic relation between q' and q, so that a caller names the column it wants and proves the relation.
-/
import Idealize.ShloMosaic.Lib.Pipeline.Value
import Idealize.ShloMosaic.Lib.ValueIdx

namespace Cert.ConcatCols

open Idealize.ShloMosaic Idealize.ShloMosaic.ValueIdx

variable {α : Type} {n a b c : Nat}

/-- A column q of the joined matrix that is column q' of the first piece (q' = q) reads the first piece. -/
theorem concat_cols_left (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin a)
    (hq : q'.val = q.val) :
    concatenate ⟨2, ![n, c]⟩ 1 [⟨⟨2, ![n, a]⟩, x⟩, ⟨⟨2, ![n, b]⟩, y⟩] h (ix2 p q) = x (ix2 p q') :=
  concatenate_pair_apply_left 1 x y h (ix2 p q) rfl (ix2 p q') fun ax =>
    match ax with
    | ⟨0, _⟩ => rfl
    | ⟨1, _⟩ => hq

/-- A column q of the joined matrix that lies a columns past column q' of the second piece (q' + a = q) reads the
    second piece. -/
theorem concat_cols_right (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin b)
    (hq : q'.val + a = q.val) :
    concatenate ⟨2, ![n, c]⟩ 1 [⟨⟨2, ![n, a]⟩, x⟩, ⟨⟨2, ![n, b]⟩, y⟩] h (ix2 p q) = y (ix2 p q') :=
  concatenate_pair_apply_right 1 x y h (ix2 p q) rfl rfl (ix2 p q')
    (fun ax hax =>
      match ax, hax with
      | ⟨0, _⟩, _ => rfl
      | ⟨1, _⟩, hax => absurd rfl hax)
    hq

end Cert.ConcatCols
-- ==== Proof.HostArrays.lean ====
/-
  The two arrays the host prepares before the grid runs: the neighbour sums and the degrees.

  The edge list [320000, 2] gives 640000 directed edges: edge e < 320000 carries the features of node `edge[e, 1]` into
  node `edge[e, 0]`, and edge 320000 + e the other way round. The host gathers the source rows of the node features
  (a negative source number is first moved up by the number of nodes), appends a column of ones, and adds the 129-wide
  rows into a zero array [10000, 129] at their target nodes: ONE pass that sums the features (columns 0..127) and counts
  the edges (column 128). The layer's first window is the first 128 columns, its second window the last column.

  Read at an entry, on the extended reals: column k < 128 of row n is `0 + ∑` of the gathered rows' entry k over the edges
  whose target is n, and column 128 of row n is `0 + ∑` of 1 over the same edges.
-/
import proofs.«158927_j68272800137826_2_alg».proof.Proof.Gen.KernelIdeal.Frame
import proofs.«158927_j68272800137826_2_alg».proof.Proof.Spec
import proofs.«158927_j68272800137826_2_alg».proof.Proof.LibScatterRows
import proofs.«158927_j68272800137826_2_alg».proof.Proof.LibConcatCols
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.ValueIdx Cert.MeanLayer

/-- An edge list. -/
abbrev Edges := IVec S320000x2 32
/-- The node features. -/
abbrev Feats := FVec Ideal S10000x128 .f32

/-- The node each directed edge takes its features from: column 1 of the edge list, then column 0. -/
def sources (e : Edges) : IVec S640000 32 :=
  concatenate S640000 0
    [⟨S320000, shapeCast _ (extractStridedSlice S320000x1 ![0, 1] e slices_S320000x2_S320000x1_0_1) shapeCasts_S320000x1_S320000⟩,
     ⟨S320000, shapeCast _ (extractStridedSlice S320000x1 ![0, 0] e slices_S320000x2_S320000x1_0_0) shapeCasts_S320000x1_S320000⟩]
    concatenates_S320000_S320000_S640000_d0

/-- The node each directed edge adds into: column 0 of the edge list, then column 1. -/
def targets (e : Edges) : IVec S640000 32 :=
  concatenate S640000 0
    [⟨S320000, shapeCast _ (extractStridedSlice S320000x1 ![0, 0] e slices_S320000x2_S320000x1_0_0) shapeCasts_S320000x1_S320000⟩,
     ⟨S320000, shapeCast _ (extractStridedSlice S320000x1 ![0, 1] e slices_S320000x2_S320000x1_0_1) shapeCasts_S320000x1_S320000⟩]
    concatenates_S320000_S320000_S640000_d0

/-- The source numbers with a negative one moved up by the number of nodes. -/
def wrapped (e : Edges) : IVec S640000 32 :=
  select (cmpi .slt (sources e) (broadcastInDim S640000 ![] bcast_S_S640000 (constantI S_ 32 0#32)))
    (addi (sources e) (broadcastInDim S640000 ![] bcast_S_S640000 (constantI S_ 32 10000#32))) (sources e)

/-- The source rows of the node features, one per directed edge. -/
def gathered (x : Feats) (e : Edges) : FVec Ideal S640000x128 .f32 :=
  Host.gather gather_S10000x128_S640000x1_S640000x128_1_0_n_n_0_1_1128 x
    (broadcastInDim S640000x1 ![0] bcast_S640000_S640000x1_0 (wrapped e))

/-- The target numbers as the one-column array of start indices the sum reads. -/
def starts (e : Edges) : IVec S640000x1 32 :=
  broadcastInDim S640000x1 ![0] bcast_S640000_S640000x1_0 (targets e)

/-- A column of ones, one per directed edge. -/
def onesCol : FVec Ideal S640000x1 .f32 :=
  broadcastInDim S640000x1 ![] bcast_S_S640000x1 (constant (F := Ideal) S_ .f32 0x3F800000#32)

/-- The zero array the rows are added into. -/
def zeros : FVec Ideal S10000x129 .f32 :=
  broadcastInDim S10000x129 ![] bcast_S_S10000x129 (constant (F := Ideal) S_ .f32 0x00000000#32)

/-- The gathered rows with the column of ones appended. -/
def joined (x : Feats) (e : Edges) : FVec Ideal S640000x129 .f32 :=
  concatenate S640000x129 1 [⟨S640000x128, gathered x e⟩, ⟨S640000x1, onesCol⟩]
    concatenates_S640000x128_S640000x1_S640000x129_d1

/-- The 129-wide rows added into the zero array at their target nodes. -/
def summed (x : Feats) (e : Edges) : FVec Ideal S10000x129 .f32 :=
  Host.scatterAdd (F := Ideal) scatter_S10000x129_S640000x1_S640000x129_1_0_0_1 zeros (starts e) (joined x e)

variable (m : (ℓ : Loc nD τ sig) → Buf (Elt Ideal) ℓ)

/-- The grid's first window is the first 128 columns of the summed rows. -/
theorem V_sums (c : Dev nD) :
    (V m c main_v22 : S10000x128.Idx → EReal)
      = extractStridedSlice S10000x128 ![0, 0]
          (summed (m ((c : Thread nD τ).loc main_arg0)) (m ((c : Thread nD τ).loc main_arg1)))
          slices_S10000x129_S10000x128_0_0 := by
  dsimp only [V, hostOps0]
  after_results_simp
  rfl

/-- The grid's second window is the last column of the summed rows. -/
theorem V_degs (c : Dev nD) :
    (V m c main_v23 : S10000x1.Idx → EReal)
      = extractStridedSlice S10000x1 ![0, 128]
          (summed (m ((c : Thread nD τ).loc main_arg0)) (m ((c : Thread nD τ).loc main_arg1)))
          slices_S10000x129_S10000x1_0_128 := by
  dsimp only [V, hostOps0]
  after_results_simp
  rfl

/-- The zero array reads the word of 0.0 everywhere. -/
theorem zeros_apply (i : S10000x129.Idx) : zeros i = zero := by
  unfold zeros
  exact broadcastInDim_apply _ bcast_S_S10000x129 _ i (fun a => a.elim0) (fun a => a.elim0)

/-- The column of ones reads the word of 1.0 everywhere. -/
theorem onesCol_apply (i : S640000x1.Idx) : onesCol i = one := by
  unfold onesCol
  exact broadcastInDim_apply _ bcast_S_S640000x1 _ i (fun a => a.elim0) (fun a => a.elim0)

/-- Entry (n, k) of the first window: zero plus the gathered rows' entry k, summed over the edges whose target is n. -/
theorem sums_apply (c : Dev nD) (n : Fin 10000) (k : Fin 128) :
    (V m c main_v22 : S10000x128.Idx → EReal) (ix2 n k)
      = zero + ∑ e ∈ Finset.univ.filter (fun e : Fin 640000 =>
            ((starts (m ((c : Thread nD τ).loc main_arg1))) (ix2 e (0 : Fin 1))).toInt = (n.val : ℤ)),
          gathered (m ((c : Thread nD τ).loc main_arg0)) (m ((c : Thread nD τ).loc main_arg1)) (ix2 e k) := by
  rw [V_sums, extractStridedSlice_apply ![0, 0] _ slices_S10000x129_S10000x128_0_0 (ix2 n k)
    (ix2 n (k.castLE (by decide : 128 ≤ 129))) (fun a => match a with
      | ⟨0, _⟩ => by show n.val = 0 + n.val; omega
      | ⟨1, _⟩ => by show k.val = 0 + k.val; omega)]
  unfold summed
  rw [ScatterRows.host_scatterAdd_rows2 scatter_S10000x129_S640000x1_S640000x129_1_0_0_1 rfl rfl rfl rfl, zeros_apply]
  refine congrArg (zero + ·) (Finset.sum_congr rfl fun e _ => ?_)
  unfold joined
  exact ConcatCols.concat_cols_left _ _ _ e (k.castLE (by decide : 128 ≤ 129)) k rfl

/-- Entry (n, 0) of the second window: zero plus one for every edge whose target is n. -/
theorem degs_apply (c : Dev nD) (n : Fin 10000) :
    (V m c main_v23 : S10000x1.Idx → EReal) (ix2 n (0 : Fin 1))
      = zero + ∑ _e ∈ Finset.univ.filter (fun e : Fin 640000 =>
            ((starts (m ((c : Thread nD τ).loc main_arg1))) (ix2 e (0 : Fin 1))).toInt = (n.val : ℤ)), one := by
  rw [V_degs, extractStridedSlice_apply ![0, 128] _ slices_S10000x129_S10000x1_0_128 (ix2 n (0 : Fin 1))
    (ix2 n (⟨128, by decide⟩ : Fin 129)) (fun a => match a with
      | ⟨0, _⟩ => by show n.val = 0 + n.val; omega
      | ⟨1, _⟩ => by show 128 = 128 + 0; rfl)]
  unfold summed
  rw [ScatterRows.host_scatterAdd_rows2 scatter_S10000x129_S640000x1_S640000x129_1_0_0_1 rfl rfl rfl rfl, zeros_apply]
  refine congrArg (zero + ·) (Finset.sum_congr rfl fun e _ => ?_)
  unfold joined
  exact (ConcatCols.concat_cols_right _ _ _ e (⟨128, by decide⟩ : Fin 129) (0 : Fin 1) rfl).trans (onesCol_apply _)

end Cert.KernelIdeal.HostArrays

end
-- ==== Proof.Reference.lean ====
/-
  The reference program read at an entry, on the extended reals.

  The reference sums the gathered source rows into a zero array [10000, 128] at the edges' target nodes, counts the
  edges per target node by adding ones into a zero vector [10000], divides each summed row by its count clipped below at
  one where the count is positive and takes zero elsewhere, multiplies the mean rows by the transposed first weight and
  the node features by the transposed second weight, adds the products and clips below at zero.

  A product with a transposed weight reads the weight's ROW at the output column: entry (k, c) of the transpose is entry
  (c, k). So entry (n, c) of the result is `MeanLayer.entry` of row n of the sums and of the features, the count of n,
  and row c of each weight — with the mean spelt as a guarded division, which `MeanLayer.entry_eq_div` turns into the
  scaled form.
-/
import proofs.«158927_j68272800137826_2_alg».proof.Proof.RefRead
import proofs.«158927_j68272800137826_2_alg».proof.Proof.Spec
import proofs.«158927_j68272800137826_2_alg».proof.Proof.LibScatterRows
import Idealize.ShloMosaic.Lib.ValueIdx

noncomputable section

namespace Cert.ReferenceIdeal.RefLayer

open Cert.ReferenceIdeal Cert.ReferenceIdeal.Gen Cert.ReferenceIdeal.ReadP Idealize.ShloMosaic
open Idealize.ShloMosaic.ValueIdx Cert.MeanLayer

variable (x0 : FVec Ideal S10000x128 .f32) (x1 : IVec S320000x2 32) (x2 x3 : FVec Ideal S128x128 .f32)

/-- Entry (n, k) of the summed rows: zero plus the gathered rows' entry k over the edges whose target is n. -/
theorem sums_apply (n : Fin 10000) (k : Fin 128) :
    val_main_v19 (F := Ideal) x0 x1 (ix2 n k)
      = zero + ∑ e ∈ Finset.univ.filter (fun e : Fin 640000 =>
            ((val_main_v18 (F := Ideal) x1) (ix2 e (0 : Fin 1))).toInt = (n.val : ℤ)),
          val_main_v16 (F := Ideal) x0 x1 (ix2 e k) := by
  unfold val_main_v19
  rw [ScatterRows.host_scatterAdd_rows2 scatter_S10000x128_S640000x1_S640000x128_1_0_0_1 rfl rfl rfl rfl,
    val_main_v17_apply, val_main_cst_apply]
  rfl

/-- The count of node n: zero plus one for every edge whose target is n. -/
theorem degs_apply (n : Fin 10000) :
    val_main_v23 (F := Ideal) x1 (ix1 n)
      = zero + ∑ _e ∈ Finset.univ.filter (fun e : Fin 640000 =>
            ((val_main_v22 (F := Ideal) x1) (ix2 e (0 : Fin 1))).toInt = (n.val : ℤ)), one := by
  unfold val_main_v23
  rw [ScatterRows.host_scatterAdd_rows1 scatter_S10000_S640000x1_S640000_n_0_0_1 rfl rfl rfl rfl,
    val_main_v21_apply, val_main_cst_2_apply]
  show zero + _ = zero + _
  refine congrArg (zero + ·) (Finset.sum_congr rfl fun e _ => ?_)
  rw [val_main_v20_apply, val_main_cst_1_apply]
  rfl

/-- The mean row at (n, k): the summed entry divided by the clipped count where the count is positive, else zero. -/
theorem mean_apply (n : Fin 10000) (k : Fin 128) :
    val_main_v32 (F := Ideal) x0 x1 (ix2 n k)
      = Scalar.select (Ideal.cmp .ogt (val_main_v23 (F := Ideal) x1 (ix1 n)) zero)
          (Ideal.div (val_main_v19 (F := Ideal) x0 x1 (ix2 n k)) (max (val_main_v23 (F := Ideal) x1 (ix1 n)) one)) zero := by
  have h1 : idx_main_v24 (idx_main_call0_v1 (ix2 n k)) = ix1 n :=
    funext fun a => Fin.ext (by match a with | ⟨0, _⟩ => rfl)
  have h2 : idx_main_v29 (idx_main_v30 (ix2 n k)) = ix1 n :=
    funext fun a => Fin.ext (by match a with | ⟨0, _⟩ => rfl)
  rw [val_main_v32_apply, val_main_call0_v1_apply, val_main_v26_apply, val_main_v24_apply, h1, val_main_v25_apply,
    val_main_cst_3_apply, val_main_v31_apply, val_main_v30_apply, val_main_v29_apply, val_main_v28_apply, h2,
    val_main_v27_apply, val_main_cst_4_apply, val_main_call0_v2_apply, val_main_call0_v0_apply, val_main_cst_5_apply]
  rfl

/-- Entry (k, c) of a transposed weight is entry (c, k) of the weight. -/
theorem wT_apply (k c : Fin 128) : val_main_v33 (F := Ideal) x2 (ix2 k c) = x2 (ix2 c k) := by
  rw [val_main_v33_apply]
  exact congrArg x2 (funext fun a => Fin.ext (by match a with | ⟨0, _⟩ => rfl | ⟨1, _⟩ => rfl))

theorem bT_apply (k c : Fin 128) : val_main_v35 (F := Ideal) x3 (ix2 k c) = x3 (ix2 c k) := by
  rw [val_main_v35_apply]
  exact congrArg x3 (funext fun a => Fin.ext (by match a with | ⟨0, _⟩ => rfl | ⟨1, _⟩ => rfl))

/-- Entry (n, c) of the reference's result. -/
theorem out_apply (n : Fin 10000) (c : Fin 128) :
    val_main_v38 (F := Ideal) x0 x1 x2 x3 (ix2 n c)
      = entry (fun k => val_main_v19 (F := Ideal) x0 x1 (ix2 n k)) (fun k => x0 (ix2 n k)) (fun k => x2 (ix2 c k))
          (fun k => x3 (ix2 c k)) (val_main_v23 (F := Ideal) x1 (ix1 n)) := by
  have hl (k : Fin 128) : lidx_main_v34 (ix2 n c) k = ix2 n k :=
    funext fun a => Fin.ext (by match a with | ⟨0, _⟩ => rfl | ⟨1, _⟩ => rfl)
  have hr (k : Fin 128) : ridx_main_v34 (ix2 n c) k = ix2 k c :=
    funext fun a => Fin.ext (by match a with | ⟨0, _⟩ => rfl | ⟨1, _⟩ => rfl)
  have hl' (k : Fin 128) : lidx_main_v36 (ix2 n c) k = ix2 n k :=
    funext fun a => Fin.ext (by match a with | ⟨0, _⟩ => rfl | ⟨1, _⟩ => rfl)
  have hr' (k : Fin 128) : ridx_main_v36 (ix2 n c) k = ix2 k c :=
    funext fun a => Fin.ext (by match a with | ⟨0, _⟩ => rfl | ⟨1, _⟩ => rfl)
  rw [entry_eq_div, val_main_v38_apply, val_main_v37_apply, val_main_v34_apply, val_main_v36_apply,
    val_main_call1_v0_apply, val_main_call1_cst_apply]
  show max (_ + _) zero = max (_ + _) zero
  refine congrArg₂ max (congrArg₂ (· + ·) (Finset.sum_congr rfl fun k _ => ?_) (Finset.sum_congr rfl fun k _ => ?_)) rfl
  · rw [hl, hr, mean_apply, wT_apply]
  · rw [hl', hr', bT_apply]

end Cert.ReferenceIdeal.RefLayer

end
-- ==== Proof.Bridge.lean ====
/-
  The two programs compute one function of the arguments.

  Both programs turn the edge list into the same 640000 target numbers and gather the same 640000 source rows: their
  index arithmetic is the same sequence of operations on the same edge list. The kernel's host sums the gathered rows and
  a column of ones in one pass over rows of width 129; the reference sums the gathered rows (width 128) and a vector of
  ones in two passes. Entry by entry the sums agree: columns are added independently, so column k < 128 of the wide sum
  is `0 + ∑` of the gathered entries k over the edges into the node, and column 128 is `0 + ∑` of 1 over those edges —
  what the reference's two sums are. With equal neighbour sums and equal degrees both results are `MeanLayer.layer` of
  them and of the node features and the two weights.
-/
import proofs.«158927_j68272800137826_2_alg».proof.Proof.HostArrays
import proofs.«158927_j68272800137826_2_alg».proof.Proof.Reference
import proofs.«158927_j68272800137826_2_alg».proof.Proof.Spec

noncomputable section

namespace Cert.Bridge

open Idealize.ShloMosaic Idealize.ShloMosaic.TcCoe Idealize.SL.Sem Idealize.ShloMosaic.ValueIdx Cert.MeanLayer

/-- The target numbers, as start indices, are one array in both programs (the reference's first sum reads them here) … -/
theorem starts_eq (e : IVec Cert.KernelIdeal.S320000x2 32) :
    Cert.KernelIdeal.HostArrays.starts e = Cert.ReferenceIdeal.ReadP.val_main_v18 (F := Ideal) e := by
  unfold Cert.KernelIdeal.HostArrays.starts Cert.KernelIdeal.HostArrays.targets
    Cert.ReferenceIdeal.ReadP.val_main_v18 Cert.ReferenceIdeal.ReadP.val_main_v9
    Cert.ReferenceIdeal.ReadP.val_main_v6 Cert.ReferenceIdeal.ReadP.val_main_v5
    Cert.ReferenceIdeal.ReadP.val_main_v8 Cert.ReferenceIdeal.ReadP.val_main_v7
  rfl

/-- … (and its second sum here), … -/
theorem starts_eq' (e : IVec Cert.KernelIdeal.S320000x2 32) :
    Cert.KernelIdeal.HostArrays.starts e = Cert.ReferenceIdeal.ReadP.val_main_v22 (F := Ideal) e := by
  unfold Cert.KernelIdeal.HostArrays.starts Cert.KernelIdeal.HostArrays.targets
    Cert.ReferenceIdeal.ReadP.val_main_v22 Cert.ReferenceIdeal.ReadP.val_main_v9
    Cert.ReferenceIdeal.ReadP.val_main_v6 Cert.ReferenceIdeal.ReadP.val_main_v5
    Cert.ReferenceIdeal.ReadP.val_main_v8 Cert.ReferenceIdeal.ReadP.val_main_v7
  rfl

/-- … and so are the gathered source rows. -/
theorem gathered_eq (x : FVec Ideal Cert.KernelIdeal.S10000x128 .f32) (e : IVec Cert.KernelIdeal.S320000x2 32) :
    Cert.KernelIdeal.HostArrays.gathered x e = Cert.ReferenceIdeal.ReadP.val_main_v16 (F := Ideal) x e := by
  unfold Cert.KernelIdeal.HostArrays.gathered Cert.KernelIdeal.HostArrays.wrapped Cert.KernelIdeal.HostArrays.sources
    Cert.ReferenceIdeal.ReadP.val_main_v16 Cert.ReferenceIdeal.ReadP.val_main_v15 Cert.ReferenceIdeal.ReadP.val_main_v14
    Cert.ReferenceIdeal.ReadP.val_main_v11 Cert.ReferenceIdeal.ReadP.val_main_v13 Cert.ReferenceIdeal.ReadP.val_main_v10
    Cert.ReferenceIdeal.ReadP.val_main_v12 Cert.ReferenceIdeal.ReadP.val_main_c Cert.ReferenceIdeal.ReadP.val_main_c_0
    Cert.ReferenceIdeal.ReadP.val_main_v4 Cert.ReferenceIdeal.ReadP.val_main_v1 Cert.ReferenceIdeal.ReadP.val_main_v0
    Cert.ReferenceIdeal.ReadP.val_main_v3 Cert.ReferenceIdeal.ReadP.val_main_v2
  rfl

variable (m : (ℓ : Loc Cert.KernelIdeal.nD Cert.KernelIdeal.τ Cert.KernelIdeal.sig) → Buf (Elt Ideal) ℓ)

/-- The kernel's result, the layer of its two host-prepared arrays, is the reference's result term of the same
    arguments. -/
theorem result_eq (c : Dev Cert.KernelIdeal.nD) :
    layer (Cert.KernelIdeal.Gen.V m c Cert.KernelIdeal.main_v22) (Cert.KernelIdeal.Gen.V m c Cert.KernelIdeal.main_v23)
        (m ((c : Thread Cert.KernelIdeal.nD Cert.KernelIdeal.τ).loc Cert.KernelIdeal.main_arg0))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.ReferenceIdeal.ReadP.val_main_v38 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  funext i
  obtain ⟨n, q, rfl⟩ : ∃ (n : Fin 10000) (q : Fin 128), i = ix2 n q := ⟨i 0, i 1, eq_ix2 i⟩
  rw [layer_apply, Cert.ReferenceIdeal.RefLayer.out_apply]
  have hs : ∀ k : Fin 128,
      (Cert.KernelIdeal.Gen.V m c Cert.KernelIdeal.main_v22 : Cert.KernelIdeal.S10000x128.Idx → EReal) (ix2 n k)
        = Cert.ReferenceIdeal.ReadP.val_main_v19 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)) (ix2 n k) := fun k => by
    rw [Cert.KernelIdeal.HostArrays.sums_apply, Cert.ReferenceIdeal.RefLayer.sums_apply, starts_eq, gathered_eq]
  have hd : (Cert.KernelIdeal.Gen.V m c Cert.KernelIdeal.main_v23 : Cert.KernelIdeal.S10000x1.Idx → EReal) (ix2 n (0 : Fin 1))
        = Cert.ReferenceIdeal.ReadP.val_main_v23 (F := Ideal)
            (m ((c : Thread Cert.KernelIdeal.nD Cert.KernelIdeal.τ).loc Cert.KernelIdeal.main_arg1)) (ix1 n) := by
    rw [Cert.KernelIdeal.HostArrays.degs_apply, Cert.ReferenceIdeal.RefLayer.degs_apply, starts_eq']
  rw [show (fun k => (Cert.KernelIdeal.Gen.V m c Cert.KernelIdeal.main_v22 : Cert.KernelIdeal.S10000x128.Idx → EReal) (ix2 n k))
      = fun k => Cert.ReferenceIdeal.ReadP.val_main_v19 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)) (ix2 n k) from funext hs, hd]

end Cert.Bridge

end
-- ==== Proof.lean ====
/-
  The certificate of a mean-aggregating graph layer: a tiled kernel with its host preparation against a plain reference.

  Both programs compute, for every node n and output column c,
      max (∑ k, mean n k · w c k  +  ∑ k, x n k · b c k) 0,
  where mean n is the sum of the feature rows of n's neighbours over the number of neighbours (zero for an isolated node).
  The kernel's host sums the neighbour rows and counts the neighbours in one pass, its grid scales each summed row by the
  reciprocal of the clipped count and multiplies against the weights as stored; the reference sums and counts in two
  passes, divides by the clipped count, and multiplies against the transposed weights.

  The pieces: Spec.lean (the entry as one formula; scaling by the reciprocal is dividing, for every extended real),
  Body.lean (the value a grid step stores, entry by entry), Blocks.lean (the steps' blocks cover the output, so it ends as
  the layer of the arrays the grid finds), HostArrays.lean (those arrays, read at an entry), Reference.lean (the reference
  read at an entry), Bridge.lean (the two programs' sums and counts are the same, so their results are). The frames of the
  two kernel programs are the generated ones; the reference's frame is its run with the result dropped; nothing was
  rewritten when the kernel was idealized, so the idealization claim has no conjunct.
-/
import proofs.«158927_j68272800137826_2_alg».proof.Defs
import proofs.«158927_j68272800137826_2_alg».proof.Proof.Gen.Kernel
import proofs.«158927_j68272800137826_2_alg».proof.Proof.Gen.Kernel.Frame
import proofs.«158927_j68272800137826_2_alg».proof.Proof.Gen.KernelIdeal
import proofs.«158927_j68272800137826_2_alg».proof.Proof.Gen.KernelIdeal.Frame
import proofs.«158927_j68272800137826_2_alg».proof.Proof.Gen.KernelIdeal.Value
import proofs.«158927_j68272800137826_2_alg».proof.Proof.Gen.ReferenceIdeal
import proofs.«158927_j68272800137826_2_alg».proof.Proof.Gen.Pre_finite_inputs
import proofs.«158927_j68272800137826_2_alg».proof.Proof.RefRun
import proofs.«158927_j68272800137826_2_alg».proof.Proof.RefRead
import proofs.«158927_j68272800137826_2_alg».proof.Proof.Blocks
import proofs.«158927_j68272800137826_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the same result: the kernel's is the layer of its
    host-prepared sums and counts (Blocks.lean), the reference's is its composed term (the run), and the two are one
    function of the arguments (Bridge.lean). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v38_eq, (hagree c).1, (hagree c).2.1, (hagree c).2.2.1, (hagree c).2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
